-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x16 .f32) (main_arg5 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩

abbrev nBuf : Space → Nat
  | .hbm => 78
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S50000x128, .f32⟩
  | .hbm, ⟨60, _⟩ => ⟨S50000x16, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x16, .f32⟩
  | .hbm, ⟨70, _⟩ => ⟨S850000x1, .f32⟩
  | .hbm, ⟨71, _⟩ => ⟨S850000x16, .f32⟩
  | .hbm, ⟨72, _⟩ => ⟨S850000x16, .f32⟩
  | .hbm, ⟨73, _⟩ => ⟨S_, .f32⟩
  | .hbm, ⟨74, _⟩ => ⟨S50000x16, .f32⟩
  | .hbm, ⟨75, _⟩ => ⟨S850000x1, .i32⟩
  | .hbm, ⟨76, _⟩ => ⟨S50000x16, .f32⟩
  | .hbm, ⟨77, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S16, .f32⟩
  | .local _ .vmem, ⟨18, _⟩ => ⟨S5000x16, .f32⟩
  | .local _ .vmem, ⟨19, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x16_S5000x16_1_0_0_1_n_n_wf : DotDims.WF S5000x128 S128x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S50000x16.size a
  hwx3_0 : ∀ i : grid3.Coords, EltTy.bits .f32 = 32 ∨ (Rect.block (s := S50000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S50000x16.size a
  hwx3_2 : ∀ i : grid3.Coords, EltTy.bits .f32 = 32 ∨ (Rect.block (s := S50000x16) S5000x16.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x16, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x16, .f32⟩
  | .hbm, ⟨75, _⟩ => ⟨S850000x1, .f32⟩
  | .hbm, ⟨76, _⟩ => ⟨S850000x16, .f32⟩
  | .hbm, ⟨77, _⟩ => ⟨S850000x16, .f32⟩
  | .hbm, ⟨78, _⟩ => ⟨S_, .f32⟩
  | .hbm, ⟨79, _⟩ => ⟨S50000x16, .f32⟩
  | .hbm, ⟨80, _⟩ => ⟨S850000x1, .i32⟩
  | .hbm, ⟨81, _⟩ => ⟨S50000x16, .f32⟩
  | .hbm, ⟨82, _⟩ => ⟨S1x16, .f32⟩
  | .hbm, ⟨83, _⟩ => ⟨S50000x16, .f32⟩
  | .hbm, ⟨84, _⟩ => ⟨S50000x16, .f32⟩
  | .hbm, ⟨85, _⟩ => ⟨S50000x16, .f32⟩
  | .hbm, ⟨86, _⟩ => ⟨S50000x16, .f32⟩
  | .hbm, ⟨87, _⟩ => ⟨S_, .f32⟩
  | .hbm, ⟨88, _⟩ => ⟨S50000x16, .f32⟩
  | .hbm, ⟨89, _⟩ => ⟨S50000x16, .f32⟩
  | .hbm, ⟨90, _⟩ => ⟨S_, .f32⟩
  | .hbm, ⟨91, _⟩ => ⟨S50000x16, .f32⟩
  | .hbm, ⟨92, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's run with its RESULT kept: every weakly fair execution of @main terminates, nothing
  faulting, with the result array holding what the last boundary of the run holds there, and the six argument
  arrays as launched.

  @main is seven segments — host operations, the first product, host operations, the bias-and-maximum stage, the
  second product, host operations, the bias-and-logistic stage — and the buffer contents at each boundary are a
  fold from the launch memory: a host stretch applies its operations, a pallas_call leaves its arrays at what its
  write-backs leave and every other buffer alone. The last thread state holds every unscoped buffer at the last
  boundary's contents, so reading the result buffer against the final state gives the fold at that buffer.
-/
import proofs.«148392_j18253611008246_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.DenseSpec.lean ====
/-
  The four dense stages of a two-layer graph convolution, each as ONE function of whole arrays, index by index, on
  the extended reals:
    * `rowsTimes128` / `rowsTimes16`: a [50000,128] array times a [128,128] (resp. [128,16]) matrix — entry (n, j)
      is the sum over k of x(n, k) · w(k, j);
    * `biasMaxZero`: entry (n, j) is max (a(n, j) + b(j)) 0;
    * `biasLogistic`: entry (n, j) is the logistic function 1 / (1 + e^(-(a(n, j) + b(j)))).
  A blocked evaluation (5000 rows at a time) and a whole-array evaluation of each stage are both restrictions of
  these functions, which is all that joins the two programs: the gather, scale and scatter-add between the stages
  are the same operations on both sides and are never opened.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Node features of width 128, of width 16; the two weight matrices; the two bias vectors. -/
abbrev N128 : Shape := ⟨2, ![50000, 128]⟩
abbrev N16 : Shape := ⟨2, ![50000, 16]⟩
abbrev W128 : Shape := ⟨2, ![128, 128]⟩
abbrev W16 : Shape := ⟨2, ![128, 16]⟩
abbrev B128 : Shape := ⟨1, ![128]⟩
abbrev B16 : Shape := ⟨1, ![16]⟩

/-- Entry (n, j) of x · w: the sum over the 128 shared coordinates of x(n, k) · w(k, j). -/
def rowsTimes128 (x : FVec Ideal N128 .f32) (w : FVec Ideal W128 .f32) : FVec Ideal N128 .f32 :=
  fun i => ∑ k : Fin 128, x (ix2 (n0 := 50000) (n1 := 128) (i 0) k) * w (ix2 (n0 := 128) (n1 := 128) k (i 1))

/-- The same into 16 columns. -/
def rowsTimes16 (x : FVec Ideal N128 .f32) (w : FVec Ideal W16 .f32) : FVec Ideal N16 .f32 :=
  fun i => ∑ k : Fin 128, x (ix2 (n0 := 50000) (n1 := 128) (i 0) k) * w (ix2 (n0 := 128) (n1 := 16) k (i 1))

/-- Entry (n, j) of max (a + b) 0, the bias b added along every row. -/
def biasMaxZero (a : FVec Ideal N128 .f32) (b : FVec Ideal B128 .f32) : FVec Ideal N128 .f32 :=
  fun i => max (a i + b (ix1 (n := 128) (i 1))) (Ideal.ofBits .f32 0x00000000#32)

/-- Entry (n, j) of the logistic function of a + b, the bias b added along every row. -/
def biasLogistic (a : FVec Ideal N16 .f32) (b : FVec Ideal B16 .f32) : FVec Ideal N16 .f32 :=
  fun i => Ideal.logistic (a i + b (ix1 (n := 16) (i 1)))

/-- The word 0x3F800000 is the number one. -/
theorem ofBits_one_f32 : Ideal.ofBits .f32 0x3F800000#32 = 1 := by
  simp [Ideal.ofBits, Ideal.ieee, -EReal.coe_mul]; norm_num

end Cert.Gcn

end
-- ==== Proof.RefStages.lean ====
/-
  The reference, stage by stage, as the specification's functions of whole arrays:
    the first product is `rowsTimes128`; the bias added along the rows and the maximum with zero (the outlined relu)
    is `biasMaxZero`; the second product is `rowsTimes16`; the bias and the logistic function spelled as
    1 / (1 + e^(-v)) is `biasLogistic` (on the extended reals that quotient IS the logistic function, the word
    0x3F800000 being the number one).
  Between them sit the two aggregations — gather the rows of h by source node, scale each by its edge weight,
  scatter-add into the destination nodes — whose index arrays and weights depend on the edge list alone: they are
  named here (`aggregate128`, `aggregate16`) and never opened.
-/
import proofs.«148392_j18253611008246_1_alg».proof.Proof.Gen.ReferenceIdeal.Read
import proofs.«148392_j18253611008246_1_alg».proof.Proof.DenseSpec

set_option maxRecDepth 16384

noncomputable section

namespace Cert.ReferenceIdeal.Stages

open Cert.ReferenceIdeal Cert.ReferenceIdeal.Gen Cert.ReferenceIdeal.Read Cert.Gcn
open Idealize.ShloMosaic Idealize.ShloMosaic.TcCoe Idealize.ShloMosaic.ValueIdx Idealize.SL.Sem Idealize.ShloMosaic.StableHlo

/-- Gather the rows of `h` by source node, scale by the edge weights, scatter-add into the destination nodes: every index
    array and the weights are functions of the edge list `e` alone. -/
def aggregate128 (h : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd (F := Ideal) (φ := .f32) scatter_S50000x128_S850000x1_S850000x128_1_0_0_1 (val_main_v40 (F := Ideal)) (val_main_v41 (F := Ideal) e)
    (mulf (F := Ideal) (Host.gather gather_S50000x128_S850000x1_S850000x128_1_0_n_n_0_1_1128 h (val_main_v35 (F := Ideal) e)) (val_main_v38 (F := Ideal) e))

/-- The same on features of width 16. -/
def aggregate16 (h : (⟨S50000x16, .f32⟩ : BufTy).Contents (Elt Ideal)) (e : (⟨S2x800000, .i32⟩ : BufTy).Contents (Elt Ideal)) :
    (⟨S50000x16, .f32⟩ : BufTy).Contents (Elt Ideal) :=
  Host.scatterAdd (F := Ideal) (φ := .f32) scatter_S50000x16_S850000x1_S850000x16_1_0_0_1 (val_main_v58 (F := Ideal)) (val_main_v59 (F := Ideal) e)
    (mulf (F := Ideal) (Host.gather gather_S50000x16_S850000x1_S850000x16_1_0_n_n_0_1_116 h (val_main_v53 (F := Ideal) e)) (val_main_v56 (F := Ideal) e))

/-- The first product is `rowsTimes128`. -/
theorem product128 (x0 : (⟨S50000x128, .f32⟩ : BufTy).Contents (Elt Ideal)) (x2 : (⟨S128x128, .f32⟩ : BufTy).Contents (Elt Ideal)) :
    val_main_v29 (F := Ideal) x0 x2 = rowsTimes128 x0 x2 := by
  funext i
  rw [val_main_v29_apply]
  unfold rowsTimes128
  refine Finset.sum_congr rfl fun k _ => ?_
  have el : lidx_main_v29 i k = ix2 (n0 := 50000) (n1 := 128) (i 0) k :=
    funext fun a => Fin.ext (by match a with | ⟨0, _⟩ => rfl | ⟨1, _⟩ => rfl)
  have er : ridx_main_v29 i k = ix2 (n0 := 128) (n1 := 128) k (i 1) :=
    funext fun a => Fin.ext (by match a with | ⟨0, _⟩ => rfl | ⟨1, _⟩ => rfl)
  rw [el, er]

/-- The first aggregation reads the first product and the edge list. -/
theorem aggregated128 (x0 : (⟨S50000x128, .f32⟩ : BufTy).Contents (Elt Ideal)) (x1 : (⟨S2x800000, .i32⟩ : BufTy).Contents (Elt Ideal)) (x2 : (⟨S128x128, .f32⟩ : BufTy).Contents (Elt Ideal)) :
    val_main_v42 (F := Ideal) x0 x1 x2 = aggregate128 (val_main_v29 (F := Ideal) x0 x2) x1 := rfl

/-- The bias and the outlined relu are `biasMaxZero`. -/
theorem activated128 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v46 (F := Ideal) x0 x1 x2 x3 = biasMaxZero (val_main_v42 (F := Ideal) x0 x1 x2) x3 := by
  funext i
  rw [val_main_v46_apply, val_main_v45_apply, val_main_v44_apply, val_main_v43_apply, val_main_call0_v0_apply,
    val_main_call0_cst_apply]
  have e : idx_main_v43 (idx_main_v44 i) = ix1 (n := 128) (i 1) :=
    funext fun a => Fin.ext (by match a with | ⟨0, _⟩ => rfl)
  rw [e]
  rfl

/-- The second product is `rowsTimes16`. -/
theorem product16 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x16, .f32⟩ : BufTy).Contents (Elt Ideal)) :
    val_main_v47 (F := Ideal) x0 x1 x2 x3 x4 = rowsTimes16 (val_main_v46 (F := Ideal) x0 x1 x2 x3) x4 := by
  funext i
  rw [val_main_v47_apply]
  unfold rowsTimes16
  refine Finset.sum_congr rfl fun k _ => ?_
  have el : lidx_main_v47 i k = ix2 (n0 := 50000) (n1 := 128) (i 0) k :=
    funext fun a => Fin.ext (by match a with | ⟨0, _⟩ => rfl | ⟨1, _⟩ => rfl)
  have er : ridx_main_v47 i k = ix2 (n0 := 128) (n1 := 16) k (i 1) :=
    funext fun a => Fin.ext (by match a with | ⟨0, _⟩ => rfl | ⟨1, _⟩ => rfl)
  rw [el, er]

/-- The second aggregation reads the second product and the edge list. -/
theorem aggregated16 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x16, .f32⟩ : BufTy).Contents (Elt Ideal)) :
    val_main_v60 (F := Ideal) x0 x1 x2 x3 x4 = aggregate16 (val_main_v47 (F := Ideal) x0 x1 x2 x3 x4) x1 := rfl

/-- The bias and the quotient 1 / (1 + e^(-v)) are `biasLogistic`. -/
theorem activated16 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) :
    val_main_v69 (F := Ideal) x0 x1 x2 x3 x4 x5 = biasLogistic (val_main_v60 (F := Ideal) x0 x1 x2 x3 x4) x5 := by
  funext i
  rw [val_main_v69_apply, val_main_v68_apply, val_main_cst_12_apply, val_main_v67_apply, val_main_v66_apply,
    val_main_cst_11_apply, val_main_v65_apply, val_main_v64_apply, val_main_v63_apply, val_main_v62_apply,
    val_main_v61_apply]
  have e : idx_main_v61 (idx_main_v62 i) = ix1 (n := 16) (i 1) :=
    funext fun a => Fin.ext (by match a with | ⟨0, _⟩ => rfl)
  rw [e]
  unfold biasLogistic
  simp only [Ideal.hostDivf_def, Ideal.addf_def, Ideal.hostUnary_exp_def, Ideal.hostNegf_def, Ideal.negf_def, Ideal.ofBits_def,
    ofBits_one_f32, Ideal.logistic]

/-- THE REFERENCE'S RESULT as the composition of the six stages. -/
theorem result (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) :
    val_main_v69 (F := Ideal) x0 x1 x2 x3 x4 x5
      = biasLogistic (aggregate16 (rowsTimes16 (biasMaxZero (aggregate128 (rowsTimes128 x0 x2) x1) x3) x4) x1) x5 := by
  rw [activated16, aggregated16, product16, activated128, aggregated128, product128]

end Cert.ReferenceIdeal.Stages

end
-- ==== Proof.RowsTimesA.lean ====
/-
  The first product, run 5000 rows at a time, leaves the whole-array function `rowsTimes128` of the arrays it finds:
  point t of its ten-point grid reads rows 5000·t … 5000·t + 4999 of x and the whole matrix w, and writes back the
  product of that row block with w. Entry (r, q) of a block's product is the sum over k of x(r, k) · w(k, q): the two
  casts to a shorter float format are the identity on the extended reals, and a product accumulated into zero is the
  plain sum. The ten row blocks cover the 50000 rows.
  Stated at ANY contents `V` of the buffers when the stage is entered.
-/
import proofs.«148392_j18253611008246_1_alg».proof.Proof.Gen.KernelIdeal.Frame
import proofs.«148392_j18253611008246_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.RowsTimesA

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The product's dimension record: rows of the left operand against columns of the right, one shared axis. -/
abbrev D := dot_S5000x128_S128x128_S5000x128_1_0_0_1_n_n

/-- The left operand's row coordinate at output index i is i's row. -/
theorem lhs_row (i : S5000x128.Idx) (p : D.contr.Idx) : (D.lhsIdx i p 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

/-- The right operand's column coordinate at output index i is i's column. -/
theorem rhs_col (i : S5000x128.Idx) (p : D.contr.Idx) : (D.rhsIdx i p 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- The body's stored value at row r, column q of its block: the sum over k of x(r, k) · w(k, q). -/
theorem stored_apply (x : Vec Ideal S5000x128 .f32) (w : Vec Ideal S128x128 .f32) (r : Fin 5000) (q : Fin 128) :
    k0_pay1 x w (ix2 r q) = ∑ k : Fin 128, x (ix2 r k) * w (ix2 k q) := by
  unfold k0_pay1
  show FloatOps.matmul D none (truncf .bf16 (x : FVec Ideal S5000x128 .f32) bitsLt_bf16_f32)
      (truncf .bf16 (w : FVec Ideal S128x128 .f32) bitsLt_bf16_f32) (constant (F := Ideal) S5000x128 .f32 0x00000000#32) (ix2 r q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r q) ((contrEquiv1 D 128 rfl rfl).symm k) = ix2 r k := funext fun a => Fin.ext (by
    match a with
    | ⟨0, _⟩ => exact lhs_row _ _
    | ⟨1, _⟩ => exact (D.lhsIdx_val_of_single rfl _ _).trans hk)
  have er : D.rhsIdx (ix2 r q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [truncf_apply, truncf_apply, el, er]

/-- The printed index maps, decided over the ten points: x's row block is the output's, on the one column block; the
    matrix has one block. -/
theorem idx_facts : ∀ t : Fin cfg0.N,
    win0_0.index t (0 : Fin 2) = win0_2.index t (0 : Fin 2) ∧ win0_0.index t (1 : Fin 2) = 0
    ∧ win0_2.index t (1 : Fin 2) = 0 ∧ win0_1.index t (0 : Fin 2) = 0 ∧ win0_1.index t (1 : Fin 2) = 0 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- x's block at point t, row r, column k, is x at the row where the OUTPUT's block puts row r, column k. -/
theorem read_rows (c : Dev nD) (t : Fin cfg0.N) (r : Fin 5000) (q k : Fin 128) :
    iblk0 V c 0 t (ix2 r k)
      = V c main_arg0 (ix2 (n0 := 50000) (n1 := 128) ((((cfg0.win 2).blk t).view.emb (ix2 r q)) 0) k) := by
  obtain ⟨e0, e1, e2, e3, e4⟩ := idx_facts t
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = win0_2.index t (0 : Fin 2) * 5000 + 1 * r.val; omega
  | ⟨1, _⟩ => show win0_0.index t (1 : Fin 2) * 128 + 1 * k.val = k.val; omega

/-- The matrix's block at any point is the whole matrix. -/
theorem read_matrix (c : Dev nD) (t : Fin cfg0.N) (r : Fin 5000) (k q : Fin 128) :
    iblk0 V c 1 t (ix2 k q)
      = V c main_arg2 (ix2 (n0 := 128) (n1 := 128) k ((((cfg0.win 2).blk t).view.emb (ix2 r q)) 1)) := by
  obtain ⟨e0, e1, e2, e3, e4⟩ := idx_facts t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = win0_2.index t (1 : Fin 2) * 128 + 1 * q.val; omega

/-- WHAT POINT t WRITES BACK is block t of `rowsTimes128` of the arrays the stage finds. -/
theorem flushed_eq (c : Dev nD) (t : Fin cfg0.N) :
    (dat0 V c).flushed 2 t = ((cfg0.win 2).blk t).view.read (Elt Ideal) (rowsTimes128 (V c main_arg0) (V c main_arg2)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  funext j
  obtain ⟨r, q, rfl⟩ : ∃ (r : Fin 5000) (q : Fin 128), j = ix2 r q := ⟨j 0, j 1, eq_ix2 j⟩
  show k0_pay1 (iblk0 V c 0 t) (iblk0 V c 1 t) (ix2 r q)
    = rowsTimes128 (V c main_arg0) (V c main_arg2) (((cfg0.win 2).blk t).view.emb (ix2 r q))
  rw [stored_apply]
  unfold rowsTimes128
  refine Finset.sum_congr rfl fun k _ => ?_
  rw [read_rows V c t r q k, read_matrix V c t r k q]

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The ten row blocks cover the array: row n is in block n / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the stage leaves: `rowsTimes128` of the arrays it finds. -/
theorem whole (c : Dev nD) : (dat0 V c).arrAt 2 cfg0.N = rowsTimes128 (V c main_arg0) (V c main_arg2) :=
  (dat0 V c).arrAt_eq_of_cover 2 _ (fun t _ => flushed_eq V c t) cover

end Cert.KernelIdeal.RowsTimesA

end
-- ==== Proof.BiasMax.lean ====
/-
  The bias-and-maximum stage, run 5000 rows at a time, leaves the whole-array function `biasMaxZero` of the arrays it
  finds: point t of its ten-point grid reads rows 5000·t … 5000·t + 4999 of its input and the whole bias vector, and
  writes back max (a + b) 0 on those rows; the ten row blocks cover the 50000 rows.
  Stated at ANY contents `V` of the buffers when the stage is entered: the run instantiates it at the contents the
  preceding host operations leave.
-/
import proofs.«148392_j18253611008246_1_alg».proof.Proof.Gen.KernelIdeal.Frame
import proofs.«148392_j18253611008246_1_alg».proof.Proof.DenseSpec
import Idealize.ShloMosaic.Lib.Pipeline.Value
import Idealize.ShloMosaic.Lib.ValueIdx
import Idealize.ShloMosaic.Lib.ValueLayout

set_option maxRecDepth 16384

noncomputable section

namespace Cert.KernelIdeal.BiasMax

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value at row r, column q of its block: max (x(r, q) + b(q)) 0. -/
theorem stored_apply (x : Vec Ideal S5000x128 .f32) (b : Vec Ideal S128 .f32) (r : Fin 5000) (q : Fin 128) :
    k1_pay1 x b (ix2 r q) = max (x (ix2 r q) + b (ix1 q)) (Ideal.ofBits .f32 0x00000000#32) := by
  unfold k1_pay1
  show maximumf (addf (shapeCast S5000x128 (x : FVec Ideal S5000x128 .f32) shapeCasts_S5000x128_S5000x128)
      (broadcastTo S5000x128 (shapeCast S1x128 (b : FVec Ideal S128 .f32) shapeCasts_S128_S1x128) broadcasts_S1x128_S5000x128))
      (broadcast S5000x128 (Scalar.ofBits (F := Ideal) .f32 0x00000000#32)) (ix2 r q) = _
  rw [maximumf_apply, addf_apply, shapeCast_self, broadcast_apply, broadcastTo_1b_ab_apply, shapeCast_a_1a_apply]
  rfl

/-- The printed index maps, decided over the ten points: the input's row block is the output's, both on the one column
    block; the bias vector has one block. -/
theorem idx_facts : ∀ t : Fin cfg1.N,
    win1_0.index t (0 : Fin 2) = win1_2.index t (0 : Fin 2) ∧ win1_0.index t (1 : Fin 2) = 0
    ∧ win1_2.index t (1 : Fin 2) = 0 ∧ win1_1.index t (0 : Fin 1) = 0 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The input block at point t, row r, column q, is the input array where the OUTPUT's block puts (r, q). -/
theorem read_rows (c : Dev nD) (t : Fin cfg1.N) (r : Fin 5000) (q : Fin 128) :
    iblk1 V c 0 t (ix2 r q) = V c main_v42 (((cfg1.win 2).blk t).view.emb (ix2 r q)) := by
  obtain ⟨e0, e1, e2, e3⟩ := idx_facts t
  show V c main_v42 (((cfg1.win 0).blk t).view.emb (ix2 r q)) = V c main_v42 (((cfg1.win 2).blk t).view.emb (ix2 r q))
  refine congrArg (V c main_v42) ?_
  funext a; apply Fin.ext
  match a with
  | ⟨0, _⟩ => show win1_0.index t (0 : Fin 2) * 5000 + 1 * r.val = win1_2.index t (0 : Fin 2) * 5000 + 1 * r.val; omega
  | ⟨1, _⟩ => show win1_0.index t (1 : Fin 2) * 128 + 1 * q.val = win1_2.index t (1 : Fin 2) * 128 + 1 * q.val; omega

/-- The bias block at any point is the whole bias vector. -/
theorem read_bias (c : Dev nD) (t : Fin cfg1.N) (q : Fin 128) :
    iblk1 V c 1 t (ix1 q) = V c main_arg3 (ix1 q) := by
  obtain ⟨e0, e1, e2, e3⟩ := idx_facts t
  show V c main_arg3 (((cfg1.win 1).blk t).view.emb (ix1 q)) = V c main_arg3 (ix1 q)
  refine congrArg (V c main_arg3) ?_
  funext a; apply Fin.ext
  match a with
  | ⟨0, _⟩ => show win1_1.index t (0 : Fin 1) * 128 + 1 * q.val = q.val; omega

/-- WHAT POINT t WRITES BACK is block t of `biasMaxZero` of the arrays the stage finds. -/
theorem flushed_eq (c : Dev nD) (t : Fin cfg1.N) :
    (dat1 V c).flushed 2 t = ((cfg1.win 2).blk t).view.read (Elt Ideal) (biasMaxZero (V c main_v42) (V c main_arg3)) := by
  show (cfg1.win 2).cut (grid1.coords t) ((dat1 V c).after 2 t) = _
  rw [after1_2]
  unfold out1_2
  rw [View.canon_unit_zero zero2]
  simp only [View.ld_unit_zero (S := S5000x128) zero2, View.ld_unit_zero (S := S128) zero1]
  obtain ⟨e0, e1, e2, e3⟩ := idx_facts t
  funext j
  obtain ⟨r, q, rfl⟩ : ∃ (r : Fin 5000) (q : Fin 128), j = ix2 r q := ⟨j 0, j 1, eq_ix2 j⟩
  show k1_pay1 (iblk1 V c 0 t) (iblk1 V c 1 t) (ix2 r q)
    = biasMaxZero (V c main_v42) (V c main_arg3) (((cfg1.win 2).blk t).view.emb (ix2 r q))
  rw [stored_apply, read_rows V c t r q, read_bias V c t q]
  have hq : (((cfg1.win 2).blk t).view.emb (ix2 r q)) 1 = q :=
    Fin.ext (show win1_2.index t (1 : Fin 2) * 128 + 1 * q.val = q.val by omega)
  unfold biasMaxZero
  show max (_ + V c main_arg3 (ix1 q)) _ = max (_ + V c main_arg3 (ix1 ((((cfg1.win 2).blk t).view.emb (ix2 r q)) 1))) _
  rw [hq]

/-- An index of the array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v43).slice (win1_2.rect t)).set ↔ _
  rw [View.set_slice_whole, Rect.mem_set_unit]
  exact Iff.rfl

/-- The ten row blocks cover the array: row n is in block n / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY the stage leaves: `biasMaxZero` of the arrays it finds. -/
theorem whole (c : Dev nD) : (dat1 V c).arrAt 2 cfg1.N = biasMaxZero (V c main_v42) (V c main_arg3) :=
  (dat1 V c).arrAt_eq_of_cover 2 _ (fun t _ => flushed_eq V c t) cover

end Cert.KernelIdeal.BiasMax

end
-- ==== Proof.RowsTimesB.lean ====
/-
  The second product, run 5000 rows at a time, leaves the whole-array function `rowsTimes16` of the arrays it finds:
  point t of its ten-point grid reads rows 5000·t … 5000·t + 4999 of h and the whole [128,16] matrix w, and writes back
  the product of that row block with w. Entry (r, q) of a block's product is the sum over the 128 shared coordinates k
  of h(r, k) · w(k, q): the casts to a shorter float format are the identity on the extended reals, and a product
  accumulated into zero is the plain sum. The ten row blocks cover the 50000 rows.
  Stated at ANY contents `V` of the buffers when the stage is entered.
-/
import proofs.«148392_j18253611008246_1_alg».proof.Proof.Gen.KernelIdeal.Frame
import proofs.«148392_j18253611008246_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.RowsTimesB

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The product's dimension record: rows of the left operand against columns of the right, one shared axis. -/
abbrev D := dot_S5000x128_S128x16_S5000x16_1_0_0_1_n_n

/-- The left operand's row coordinate at output index i is i's row. -/
theorem lhs_row (i : S5000x16.Idx) (p : D.contr.Idx) : (D.lhsIdx i p 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

/-- The right operand's column coordinate at output index i is i's column. -/
theorem rhs_col (i : S5000x16.Idx) (p : D.contr.Idx) : (D.rhsIdx i p 1).val = (i 1).val := by
  unfold DotDims.rhsIdx
  rw [dif_neg (show ¬(1 : Fin S128x16.rank) ∈ D.rhsBatch by decide),
    dif_pos (show (1 : Fin S128x16.rank) ∈ D.rhsNonContracting by decide)]
  rfl

/-- The body's stored value at row r, column q of its block: the sum over k of x(r, k) · w(k, q). -/
theorem stored_apply (x : Vec Ideal S5000x128 .f32) (w : Vec Ideal S128x16 .f32) (r : Fin 5000) (q : Fin 16) :
    k2_pay1 x w (ix2 r q) = ∑ k : Fin 128, x (ix2 r k) * w (ix2 k q) := by
  unfold k2_pay1
  show FloatOps.matmul D none
      (truncf .bf16 (shapeCast S5000x128 (x : FVec Ideal S5000x128 .f32) shapeCasts_S5000x128_S5000x128) bitsLt_bf16_f32)
      (truncf .bf16 (w : FVec Ideal S128x16 .f32) bitsLt_bf16_f32) (constant (F := Ideal) S5000x16 .f32 0x00000000#32) (ix2 r q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r q) ((contrEquiv1 D 128 rfl rfl).symm k) = ix2 r k := funext fun a => Fin.ext (by
    match a with
    | ⟨0, _⟩ => exact lhs_row _ _
    | ⟨1, _⟩ => exact (D.lhsIdx_val_of_single rfl _ _).trans hk)
  have er : D.rhsIdx (ix2 r q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [truncf_apply, truncf_apply, el, er, shapeCast_self]

/-- The printed index maps, decided over the ten points: x's row block is the output's, on the one column block; the
    matrix has one block. -/
theorem idx_facts : ∀ t : Fin cfg2.N,
    win2_0.index t (0 : Fin 2) = win2_2.index t (0 : Fin 2) ∧ win2_0.index t (1 : Fin 2) = 0
    ∧ win2_2.index t (1 : Fin 2) = 0 ∧ win2_1.index t (0 : Fin 2) = 0 ∧ win2_1.index t (1 : Fin 2) = 0 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- x's block at point t, row r, column k, is x at the row where the OUTPUT's block puts row r, column k. -/
theorem read_rows (c : Dev nD) (t : Fin cfg2.N) (r : Fin 5000) (q : Fin 16) (k : Fin 128) :
    iblk2 V c 0 t (ix2 r k)
      = V c main_v43 (ix2 (n0 := 50000) (n1 := 128) ((((cfg2.win 2).blk t).view.emb (ix2 r q)) 0) k) := by
  obtain ⟨e0, e1, e2, e3, e4⟩ := idx_facts t
  show V c main_v43 (((cfg2.win 0).blk t).view.emb (ix2 r k)) = _
  refine congrArg (V c main_v43) ?_
  funext a; apply Fin.ext
  match a with
  | ⟨0, _⟩ => show win2_0.index t (0 : Fin 2) * 5000 + 1 * r.val = win2_2.index t (0 : Fin 2) * 5000 + 1 * r.val; omega
  | ⟨1, _⟩ => show win2_0.index t (1 : Fin 2) * 128 + 1 * k.val = k.val; omega

/-- The matrix's block at any point is the whole matrix. -/
theorem read_matrix (c : Dev nD) (t : Fin cfg2.N) (r : Fin 5000) (k : Fin 128) (q : Fin 16) :
    iblk2 V c 1 t (ix2 k q)
      = V c main_arg4 (ix2 (n0 := 128) (n1 := 16) k ((((cfg2.win 2).blk t).view.emb (ix2 r q)) 1)) := by
  obtain ⟨e0, e1, e2, e3, e4⟩ := idx_facts t
  show V c main_arg4 (((cfg2.win 1).blk t).view.emb (ix2 k q)) = _
  refine congrArg (V c main_arg4) ?_
  funext a; apply Fin.ext
  match a with
  | ⟨0, _⟩ => show win2_1.index t (0 : Fin 2) * 128 + 1 * k.val = k.val; omega
  | ⟨1, _⟩ => show win2_1.index t (1 : Fin 2) * 16 + 1 * q.val = win2_2.index t (1 : Fin 2) * 16 + 1 * q.val; omega

/-- WHAT POINT t WRITES BACK is block t of `rowsTimes16` of the arrays the stage finds. -/
theorem flushed_eq (c : Dev nD) (t : Fin cfg2.N) :
    (dat2 V c).flushed 2 t = ((cfg2.win 2).blk t).view.read (Elt Ideal) (rowsTimes16 (V c main_v43) (V c main_arg4)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128x16) zero2]
  funext j
  obtain ⟨r, q, rfl⟩ : ∃ (r : Fin 5000) (q : Fin 16), j = ix2 r q := ⟨j 0, j 1, eq_ix2 j⟩
  show k2_pay1 (iblk2 V c 0 t) (iblk2 V c 1 t) (ix2 r q)
    = rowsTimes16 (V c main_v43) (V c main_arg4) (((cfg2.win 2).blk t).view.emb (ix2 r q))
  rw [stored_apply]
  unfold rowsTimes16
  refine Finset.sum_congr rfl fun k _ => ?_
  rw [read_rows V c t r q k, read_matrix V c t r k q]

/-- An index of the array is in point t's block iff each coordinate is in the block's range on its axis. -/
theorem mem_blk (t : Fin cfg2.N) (i : S50000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v44).slice (win2_2.rect t)).set ↔ _
  rw [View.set_slice_whole, Rect.mem_set_unit]
  exact Iff.rfl

/-- The ten row blocks cover the array: row n is in block n / 5000. -/
theorem cover (i : S50000x16.Idx) :
    ∃ t : Fin cfg2.N, (cfg2.win 2).flush t = true ∧ i ∈ ((cfg2.win 2).blk t).view.set := by
  have hi0 : (i 0).val < 50000 := (i 0).isLt
  have hi1 : (i 1).val < 16 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- THE ARRAY the stage leaves: `rowsTimes16` of the arrays it finds. -/
theorem whole (c : Dev nD) : (dat2 V c).arrAt 2 cfg2.N = rowsTimes16 (V c main_v43) (V c main_arg4) :=
  (dat2 V c).arrAt_eq_of_cover 2 _ (fun t _ => flushed_eq V c t) cover

end Cert.KernelIdeal.RowsTimesB

end
-- ==== Proof.BiasLogistic.lean ====
/-
  The bias-and-logistic stage, run 5000 rows at a time, leaves the whole-array function `biasLogistic` of the arrays it
  finds: point t of its ten-point grid reads rows 5000·t … 5000·t + 4999 of its input and the whole bias vector, and
  writes back the logistic function of a + b on those rows; the ten row blocks cover the 50000 rows.
  Stated at ANY contents `V` of the buffers when the stage is entered.
-/
import proofs.«148392_j18253611008246_1_alg».proof.Proof.Gen.KernelIdeal.Frame
import proofs.«148392_j18253611008246_1_alg».proof.Proof.DenseSpec
import Idealize.ShloMosaic.Lib.Pipeline.Value
import Idealize.ShloMosaic.Lib.ValueIdx
import Idealize.ShloMosaic.Lib.ValueLayout

set_option maxRecDepth 16384

noncomputable section

namespace Cert.KernelIdeal.BiasLogistic

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The body's stored value at row r, column q of its block: the logistic function of x(r, q) + b(q). -/
theorem stored_apply (x : Vec Ideal S5000x16 .f32) (b : Vec Ideal S16 .f32) (r : Fin 5000) (q : Fin 16) :
    k3_pay1 x b (ix2 r q) = Ideal.logistic (x (ix2 r q) + b (ix1 q)) := by
  unfold k3_pay1
  show Ideal.logistic ((addf (shapeCast S5000x16 (x : FVec Ideal S5000x16 .f32) shapeCasts_S5000x16_S5000x16)
      (broadcastTo S5000x16 (shapeCast S1x16 (b : FVec Ideal S16 .f32) shapeCasts_S16_S1x16) broadcasts_S1x16_S5000x16)
        : FVec Ideal S5000x16 .f32) (ix2 r q)) = _
  rw [addf_apply, shapeCast_self, broadcastTo_1b_ab_apply, shapeCast_a_1a_apply]

/-- The printed index maps, decided over the ten points: the input's row block is the output's, both on the one column
    block; the bias vector has one block. -/
theorem idx_facts : ∀ t : Fin cfg3.N,
    win3_0.index t (0 : Fin 2) = win3_2.index t (0 : Fin 2) ∧ win3_0.index t (1 : Fin 2) = 0
    ∧ win3_2.index t (1 : Fin 2) = 0 ∧ win3_1.index t (0 : Fin 1) = 0 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The input block at point t, row r, column q, is the input array where the OUTPUT's block puts (r, q). -/
theorem read_rows (c : Dev nD) (t : Fin cfg3.N) (r : Fin 5000) (q : Fin 16) :
    iblk3 V c 0 t (ix2 r q) = V c main_v57 (((cfg3.win 2).blk t).view.emb (ix2 r q)) := by
  obtain ⟨e0, e1, e2, e3⟩ := idx_facts t
  show V c main_v57 (((cfg3.win 0).blk t).view.emb (ix2 r q)) = V c main_v57 (((cfg3.win 2).blk t).view.emb (ix2 r q))
  refine congrArg (V c main_v57) ?_
  funext a; apply Fin.ext
  match a with
  | ⟨0, _⟩ => show win3_0.index t (0 : Fin 2) * 5000 + 1 * r.val = win3_2.index t (0 : Fin 2) * 5000 + 1 * r.val; omega
  | ⟨1, _⟩ => show win3_0.index t (1 : Fin 2) * 16 + 1 * q.val = win3_2.index t (1 : Fin 2) * 16 + 1 * q.val; omega

/-- The bias block at any point is the whole bias vector. -/
theorem read_bias (c : Dev nD) (t : Fin cfg3.N) (q : Fin 16) :
    iblk3 V c 1 t (ix1 q) = V c main_arg5 (ix1 q) := by
  obtain ⟨e0, e1, e2, e3⟩ := idx_facts t
  show V c main_arg5 (((cfg3.win 1).blk t).view.emb (ix1 q)) = V c main_arg5 (ix1 q)
  refine congrArg (V c main_arg5) ?_
  funext a; apply Fin.ext
  match a with
  | ⟨0, _⟩ => show win3_1.index t (0 : Fin 1) * 16 + 1 * q.val = q.val; omega

/-- WHAT POINT t WRITES BACK is block t of `biasLogistic` of the arrays the stage finds. -/
theorem flushed_eq (c : Dev nD) (t : Fin cfg3.N) :
    (dat3 V c).flushed 2 t = ((cfg3.win 2).blk t).view.read (Elt Ideal) (biasLogistic (V c main_v57) (V c main_arg5)) := by
  show (cfg3.win 2).cut (grid3.coords t) ((dat3 V c).after 2 t) = _
  rw [after3_2]
  unfold out3_2
  rw [View.canon_unit_zero zero2]
  simp only [View.ld_unit_zero (S := S5000x16) zero2, View.ld_unit_zero (S := S16) zero1]
  obtain ⟨e0, e1, e2, e3⟩ := idx_facts t
  funext j
  obtain ⟨r, q, rfl⟩ : ∃ (r : Fin 5000) (q : Fin 16), j = ix2 r q := ⟨j 0, j 1, eq_ix2 j⟩
  show k3_pay1 (iblk3 V c 0 t) (iblk3 V c 1 t) (ix2 r q)
    = biasLogistic (V c main_v57) (V c main_arg5) (((cfg3.win 2).blk t).view.emb (ix2 r q))
  rw [stored_apply, read_rows V c t r q, read_bias V c t q]
  have hq : (((cfg3.win 2).blk t).view.emb (ix2 r q)) 1 = q :=
    Fin.ext (show win3_2.index t (1 : Fin 2) * 16 + 1 * q.val = q.val by omega)
  unfold biasLogistic
  show Ideal.logistic (_ + V c main_arg5 (ix1 q)) = Ideal.logistic (_ + V c main_arg5 (ix1 ((((cfg3.win 2).blk t).view.emb (ix2 r q)) 1)))
  rw [hq]

/-- An index of the array is in point t's block iff each coordinate is in the block's range on its axis. -/
theorem mem_blk (t : Fin cfg3.N) (i : S50000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v58).slice (win3_2.rect t)).set ↔ _
  rw [View.set_slice_whole, Rect.mem_set_unit]
  exact Iff.rfl

/-- The ten row blocks cover the array: row n is in block n / 5000. -/
theorem cover (i : S50000x16.Idx) :
    ∃ t : Fin cfg3.N, (cfg3.win 2).flush t = true ∧ i ∈ ((cfg3.win 2).blk t).view.set := by
  have hi0 : (i 0).val < 50000 := (i 0).isLt
  have hi1 : (i 1).val < 16 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- THE ARRAY the stage leaves: `biasLogistic` of the arrays it finds. -/
theorem whole (c : Dev nD) : (dat3 V c).arrAt 2 cfg3.N = biasLogistic (V c main_v57) (V c main_arg5) :=
  (dat3 V c).arrAt_eq_of_cover 2 _ (fun t _ => flushed_eq V c t) cover

end Cert.KernelIdeal.BiasLogistic

end
-- ==== Proof.Joined.lean ====
/-
  The idealized kernel's result is the reference's composition of stages, as one function of the six arguments.

  Walking the run's boundaries backwards from the result buffer: the last pallas_call leaves `biasLogistic` of the
  aggregated features it finds and the second bias; those features are the host's gather, scale and scatter-add of
  what the second product left; the second product leaves `rowsTimes16` of what the bias-and-maximum stage left
  and the second matrix; and so on down to the first product of the input features with the first matrix.
  The source list, the destination list and the edge weights are computed once, before the first pallas_call,
  by the same operations of the edge list as in the reference, and no later operation or pallas_call writes them;
  each gather, scale and scatter-add stretch is the reference's aggregation of the same arrays.
-/
import proofs.«148392_j18253611008246_1_alg».proof.Proof.Gen.KernelIdeal.Frame
import proofs.«148392_j18253611008246_1_alg».proof.Proof.RefStages
import proofs.«148392_j18253611008246_1_alg».proof.Proof.RowsTimesA
import proofs.«148392_j18253611008246_1_alg».proof.Proof.BiasMax
import proofs.«148392_j18253611008246_1_alg».proof.Proof.RowsTimesB
import proofs.«148392_j18253611008246_1_alg».proof.Proof.BiasLogistic
import Idealize.ShloMosaic.PureOps.Ideal
import Idealize.ShloMosaic.Lib.StableHlo.Run

set_option maxRecDepth 16384

noncomputable section

namespace Cert.Joined

open Cert.KernelIdeal Cert.KernelIdeal.Gen
open Cert.ReferenceIdeal.Read Cert.ReferenceIdeal.Stages Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The three arrays computed from the edge list, before the first pallas_call -/

set_option maxHeartbeats 8000000 in
/-- The source list: the edge list's first row with the self-loops appended. -/
theorem sources (c : Dev nD) :
    W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results_simp
  unfold val_main_v3 val_main_v2 val_main_v1 val_main_v0
  rfl

set_option maxHeartbeats 8000000 in
/-- The destination list: the edge list's second row with the self-loops appended. -/
theorem destinations (c : Dev nD) :
    W1 m ρ c (Proc.devRef .tc main_v6) = val_main_v6 (F := Ideal) (m ((c.tc : Thread nD τ).loc main_arg1)) := by
  show StableHlo.after hostOps0 (W0 m ρ c) (Proc.devRef .tc main_v6) = _
  dsimp only [hostOps0]
  after_results_simp
  unfold val_main_v6 val_main_v5 val_main_v4 val_main_v0
  rfl

/-! ## The two aggregations -/

set_option maxHeartbeats 8000000 in
/-- The first gather, scale and scatter-add stretch is the reference's aggregation of the arrays it finds. -/
theorem aggregation128 (c : Dev nD) (e : (⟨Cert.ReferenceIdeal.S2x800000, .i32⟩ : BufTy).Contents (Elt Ideal))
    (hs : W2 m ρ c (Proc.devRef .tc main_v3) = val_main_v3 (F := Ideal) e)
    (hd : W2 m ρ c (Proc.devRef .tc main_v6) = val_main_v6 (F := Ideal) e)
    (hw : W2 m ρ c (Proc.devRef .tc main_v28) = val_main_v28 (F := Ideal) e) :
    W3 m ρ c (Proc.devRef .tc main_v42) = aggregate128 (W2 m ρ c (Proc.devRef .tc main_v29)) e := by
  show StableHlo.after hostOps1 (W2 m ρ c) (Proc.devRef .tc main_v42) = _
  dsimp only [hostOps1]
  after_results
  rw [hs, hd, hw]
  unfold aggregate128 val_main_v40 val_main_cst_7 val_main_v41 val_main_v35 val_main_v34 val_main_v31 val_main_v30 val_main_c_5
    val_main_v33 val_main_v32 val_main_c_6 val_main_v38 val_main_v37
  rfl

set_option maxHeartbeats 16000000 in
/-- The edge weights: the product of the inverse square roots of the degrees of an edge's two ends, the degree of a node
    being the number of edges (self-loops included) that end in it, kept at least one. -/
theorem weights (c : Dev nD) :
    W1 m ρ c (Proc.devRef .tc main_v28) = val_main_v28 (F := Ideal) (m ((c.tc : Thread nD τ).loc main_arg1)) := by
  show StableHlo.after hostOps0 (W0 m ρ c) (Proc.devRef .tc main_v28) = _
  dsimp only [hostOps0]
  after_results_simp
  unfold val_main_v28 val_main_v27 val_main_v26 val_main_v25 val_main_v24 val_main_v23 val_main_c_4 val_main_v22 val_main_v21
    val_main_c_3 val_main_v20 val_main_v19 val_main_v18 val_main_v17 val_main_v16 val_main_c_2 val_main_v15 val_main_v14 val_main_c
    val_main_v13 val_main_v12 val_main_v11 val_main_cst_1 val_main_v10 val_main_v9 val_main_v8 val_main_cst_0 val_main_v7 val_main_cst
    val_main_v6 val_main_v5 val_main_v4 val_main_v3 val_main_v2 val_main_v1 val_main_v0
  rfl

/-! ## What no stretch of host operations writes -/

set_option maxHeartbeats 8000000 in
/-- The operations before the first pallas_call do not write x. -/
theorem first_keeps_main_arg0 (c : Dev nD) : W1 m ρ c (Proc.devRef .tc main_arg0) = W0 m ρ c (Proc.devRef .tc main_arg0) := by
  show StableHlo.after hostOps0 (W0 m ρ c) (Proc.devRef .tc main_arg0) = _
  dsimp only [hostOps0]
  after_results_simp

set_option maxHeartbeats 8000000 in
/-- The operations before the first pallas_call do not write the first matrix. -/
theorem first_keeps_main_arg2 (c : Dev nD) : W1 m ρ c (Proc.devRef .tc main_arg2) = W0 m ρ c (Proc.devRef .tc main_arg2) := by
  show StableHlo.after hostOps0 (W0 m ρ c) (Proc.devRef .tc main_arg2) = _
  dsimp only [hostOps0]
  after_results_simp

set_option maxHeartbeats 8000000 in
/-- The operations before the first pallas_call do not write the first bias. -/
theorem first_keeps_main_arg3 (c : Dev nD) : W1 m ρ c (Proc.devRef .tc main_arg3) = W0 m ρ c (Proc.devRef .tc main_arg3) := by
  show StableHlo.after hostOps0 (W0 m ρ c) (Proc.devRef .tc main_arg3) = _
  dsimp only [hostOps0]
  after_results_simp

set_option maxHeartbeats 8000000 in
/-- The operations before the first pallas_call do not write the second matrix. -/
theorem first_keeps_main_arg4 (c : Dev nD) : W1 m ρ c (Proc.devRef .tc main_arg4) = W0 m ρ c (Proc.devRef .tc main_arg4) := by
  show StableHlo.after hostOps0 (W0 m ρ c) (Proc.devRef .tc main_arg4) = _
  dsimp only [hostOps0]
  after_results_simp

set_option maxHeartbeats 8000000 in
/-- The operations before the first pallas_call do not write the second bias. -/
theorem first_keeps_main_arg5 (c : Dev nD) : W1 m ρ c (Proc.devRef .tc main_arg5) = W0 m ρ c (Proc.devRef .tc main_arg5) := by
  show StableHlo.after hostOps0 (W0 m ρ c) (Proc.devRef .tc main_arg5) = _
  dsimp only [hostOps0]
  after_results_simp

set_option maxHeartbeats 8000000 in
/-- The first aggregation's operations do not write the first bias. -/
theorem second_keeps_main_arg3 (c : Dev nD) : W3 m ρ c (Proc.devRef .tc main_arg3) = W2 m ρ c (Proc.devRef .tc main_arg3) := by
  show StableHlo.after hostOps1 (W2 m ρ c) (Proc.devRef .tc main_arg3) = _
  dsimp only [hostOps1]
  after_results

set_option maxHeartbeats 8000000 in
/-- The first aggregation's operations do not write the second matrix. -/
theorem second_keeps_main_arg4 (c : Dev nD) : W3 m ρ c (Proc.devRef .tc main_arg4) = W2 m ρ c (Proc.devRef .tc main_arg4) := by
  show StableHlo.after hostOps1 (W2 m ρ c) (Proc.devRef .tc main_arg4) = _
  dsimp only [hostOps1]
  after_results

set_option maxHeartbeats 8000000 in
/-- The first aggregation's operations do not write the second bias. -/
theorem second_keeps_main_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]
  after_results

set_option maxHeartbeats 8000000 in
/-- The first aggregation's operations do not write the source list. -/
theorem second_keeps_main_v3 (c : Dev nD) : W3 m ρ c (Proc.devRef .tc main_v3) = W2 m ρ c (Proc.devRef .tc main_v3) := by
  show StableHlo.after hostOps1 (W2 m ρ c) (Proc.devRef .tc main_v3) = _
  dsimp only [hostOps1]
  after_results

set_option maxHeartbeats 8000000 in
/-- The first aggregation's operations do not write the destination list. -/
theorem second_keeps_main_v6 (c : Dev nD) : W3 m ρ c (Proc.devRef .tc main_v6) = W2 m ρ c (Proc.devRef .tc main_v6) := by
  show StableHlo.after hostOps1 (W2 m ρ c) (Proc.devRef .tc main_v6) = _
  dsimp only [hostOps1]
  after_results

set_option maxHeartbeats 8000000 in
/-- The first aggregation's operations do not write the edge weights. -/
theorem second_keeps_main_v28 (c : Dev nD) : W3 m ρ c (Proc.devRef .tc main_v28) = W2 m ρ c (Proc.devRef .tc main_v28) := by
  show StableHlo.after hostOps1 (W2 m ρ c) (Proc.devRef .tc main_v28) = _
  dsimp only [hostOps1]
  after_results

set_option maxHeartbeats 8000000 in
/-- The second aggregation's operations do not write the second bias. -/
theorem third_keeps_main_arg5 (c : Dev nD) : W6 m ρ c (Proc.devRef .tc main_arg5) = W5 m ρ c (Proc.devRef .tc main_arg5) := by
  show StableHlo.after hostOps3 (W5 m ρ c) (Proc.devRef .tc main_arg5) = _
  dsimp only [hostOps3]
  after_results

/-! ## Each array where it is read -/

/-- The launch memory at an argument's buffer. -/
theorem at_launch (c : Dev nD) (b : Ref sig .tc) : W0 m ρ c (Proc.devRef .tc b) = m ((c.tc : Thread nD τ).loc b) := rfl

theorem x_at1 (c : Dev nD) : W1 m ρ c (Proc.devRef .tc main_arg0) = m ((c.tc : Thread nD τ).loc main_arg0) :=
  (first_keeps_main_arg0 m ρ c).trans (at_launch m ρ c main_arg0)
theorem matrix1_at1 (c : Dev nD) : W1 m ρ c (Proc.devRef .tc main_arg2) = m ((c.tc : Thread nD τ).loc main_arg2) :=
  (first_keeps_main_arg2 m ρ c).trans (at_launch m ρ c main_arg2)
theorem bias1_at3 (c : Dev nD) : W3 m ρ c (Proc.devRef .tc main_arg3) = m ((c.tc : Thread nD τ).loc main_arg3) :=
  (second_keeps_main_arg3 m ρ c).trans <| (W2_of_ne m ρ c main_arg3 (by decide)).trans <|
    (first_keeps_main_arg3 m ρ c).trans (at_launch m ρ c main_arg3)
theorem matrix2_at4 (c : Dev nD) : W4 m ρ c (Proc.devRef .tc main_arg4) = m ((c.tc : Thread nD τ).loc main_arg4) :=
  (W4_of_ne m ρ c main_arg4 (by decide)).trans <| (second_keeps_main_arg4 m ρ c).trans <|
    (W2_of_ne m ρ c main_arg4 (by decide)).trans <| (first_keeps_main_arg4 m ρ c).trans (at_launch m ρ c main_arg4)
theorem bias2_at6 (c : Dev nD) : W6 m ρ c (Proc.devRef .tc main_arg5) = m ((c.tc : Thread nD τ).loc main_arg5) :=
  (third_keeps_main_arg5 m ρ c).trans <| (W5_of_ne m ρ c main_arg5 (by decide)).trans <|
    (W4_of_ne m ρ c main_arg5 (by decide)).trans <| (second_keeps_main_arg5 m ρ c).trans <|
    (W2_of_ne m ρ c main_arg5 (by decide)).trans <| (first_keeps_main_arg5 m ρ c).trans (at_launch m ρ c main_arg5)

theorem sources_at2 (c : Dev nD) : W2 m ρ c (Proc.devRef .tc main_v3) = val_main_v3 (F := Ideal) (m ((c.tc : Thread nD τ).loc main_arg1)) :=
  (W2_of_ne m ρ c main_v3 (by decide)).trans (sources m ρ c)
theorem destinations_at2 (c : Dev nD) : W2 m ρ c (Proc.devRef .tc main_v6) = val_main_v6 (F := Ideal) (m ((c.tc : Thread nD τ).loc main_arg1)) :=
  (W2_of_ne m ρ c main_v6 (by decide)).trans (destinations m ρ c)
theorem weights_at2 (c : Dev nD) : W2 m ρ c (Proc.devRef .tc main_v28) = val_main_v28 (F := Ideal) (m ((c.tc : Thread nD τ).loc main_arg1)) :=
  (W2_of_ne m ρ c main_v28 (by decide)).trans (weights m ρ c)
theorem sources_at5 (c : Dev nD) : W5 m ρ c (Proc.devRef .tc main_v3) = val_main_v3 (F := Ideal) (m ((c.tc : Thread nD τ).loc main_arg1)) :=
  (W5_of_ne m ρ c main_v3 (by decide)).trans <| (W4_of_ne m ρ c main_v3 (by decide)).trans <|
    (second_keeps_main_v3 m ρ c).trans (sources_at2 m ρ c)
theorem destinations_at5 (c : Dev nD) : W5 m ρ c (Proc.devRef .tc main_v6) = val_main_v6 (F := Ideal) (m ((c.tc : Thread nD τ).loc main_arg1)) :=
  (W5_of_ne m ρ c main_v6 (by decide)).trans <| (W4_of_ne m ρ c main_v6 (by decide)).trans <|
    (second_keeps_main_v6 m ρ c).trans (destinations_at2 m ρ c)
theorem weights_at5 (c : Dev nD) : W5 m ρ c (Proc.devRef .tc main_v28) = val_main_v28 (F := Ideal) (m ((c.tc : Thread nD τ).loc main_arg1)) :=
  (W5_of_ne m ρ c main_v28 (by decide)).trans <| (W4_of_ne m ρ c main_v28 (by decide)).trans <|
    (second_keeps_main_v28 m ρ c).trans (weights_at2 m ρ c)

set_option maxHeartbeats 8000000 in
/-- The second gather, scale and scatter-add stretch is the reference's aggregation of the arrays it finds. -/
theorem aggregation16 (c : Dev nD) (e : (⟨Cert.ReferenceIdeal.S2x800000, .i32⟩ : BufTy).Contents (Elt Ideal))
    (hs : W5 m ρ c (Proc.devRef .tc main_v3) = val_main_v3 (F := Ideal) e)
    (hd : W5 m ρ c (Proc.devRef .tc main_v6) = val_main_v6 (F := Ideal) e)
    (hw : W5 m ρ c (Proc.devRef .tc main_v28) = val_main_v28 (F := Ideal) e) :
    W6 m ρ c (Proc.devRef .tc main_v57) = aggregate16 (W5 m ρ c (Proc.devRef .tc main_v44)) e := by
  show StableHlo.after hostOps3 (W5 m ρ c) (Proc.devRef .tc main_v57) = _
  dsimp only [hostOps3]
  after_results
  rw [hs, hd, hw]
  unfold aggregate16 val_main_v58 val_main_cst_10 val_main_v59 val_main_v53 val_main_v52 val_main_v49 val_main_v48 val_main_c_8
    val_main_v51 val_main_v50 val_main_c_9 val_main_v56 val_main_v55
  rfl

/-! ## The composition -/

/-- What the first product leaves. -/
theorem after_product1 (c : Dev nD) : W2 m ρ c (Proc.devRef .tc main_v29)
    = rowsTimes128 (m ((c.tc : Thread nD τ).loc main_arg0)) (m ((c.tc : Thread nD τ).loc main_arg2)) :=
  (W2_arr m ρ c 2).trans <| (Cert.KernelIdeal.RowsTimesA.whole (V1 m ρ) c).trans
    (congrArg₂ rowsTimes128 (x_at1 m ρ c) (matrix1_at1 m ρ c))

/-- What the first aggregation leaves. -/
theorem after_aggregation1 (c : Dev nD) : W3 m ρ c (Proc.devRef .tc main_v42)
    = aggregate128 (rowsTimes128 (m ((c.tc : Thread nD τ).loc main_arg0)) (m ((c.tc : Thread nD τ).loc main_arg2))) (m ((c.tc : Thread nD τ).loc main_arg1)) :=
  (aggregation128 m ρ c _ (sources_at2 m ρ c) (destinations_at2 m ρ c) (weights_at2 m ρ c)).trans
    (congrArg (fun h => aggregate128 h (m ((c.tc : Thread nD τ).loc main_arg1))) (after_product1 m ρ c))

/-- What the bias-and-maximum stage leaves. -/
theorem after_activation1 (c : Dev nD) : W4 m ρ c (Proc.devRef .tc main_v43)
    = biasMaxZero (aggregate128 (rowsTimes128 (m ((c.tc : Thread nD τ).loc main_arg0)) (m ((c.tc : Thread nD τ).loc main_arg2))) (m ((c.tc : Thread nD τ).loc main_arg1)))
        (m ((c.tc : Thread nD τ).loc main_arg3)) :=
  (W4_arr m ρ c 2).trans <| (Cert.KernelIdeal.BiasMax.whole (V3 m ρ) c).trans
    (congrArg₂ biasMaxZero (after_aggregation1 m ρ c) (bias1_at3 m ρ c))

/-- What the second product leaves. -/
theorem after_product2 (c : Dev nD) : W5 m ρ c (Proc.devRef .tc main_v44)
    = rowsTimes16 (biasMaxZero (aggregate128 (rowsTimes128 (m ((c.tc : Thread nD τ).loc main_arg0)) (m ((c.tc : Thread nD τ).loc main_arg2))) (m ((c.tc : Thread nD τ).loc main_arg1)))
        (m ((c.tc : Thread nD τ).loc main_arg3))) (m ((c.tc : Thread nD τ).loc main_arg4)) :=
  (W5_arr m ρ c 2).trans <| (Cert.KernelIdeal.RowsTimesB.whole (V4 m ρ) c).trans
    (congrArg₂ rowsTimes16 (after_activation1 m ρ c) (matrix2_at4 m ρ c))

/-- What the second aggregation leaves. -/
theorem after_aggregation2 (c : Dev nD) : W6 m ρ c (Proc.devRef .tc main_v57)
    = aggregate16 (rowsTimes16 (biasMaxZero (aggregate128 (rowsTimes128 (m ((c.tc : Thread nD τ).loc main_arg0)) (m ((c.tc : Thread nD τ).loc main_arg2))) (m ((c.tc : Thread nD τ).loc main_arg1)))
        (m ((c.tc : Thread nD τ).loc main_arg3))) (m ((c.tc : Thread nD τ).loc main_arg4))) (m ((c.tc : Thread nD τ).loc main_arg1)) :=
  (aggregation16 m ρ c _ (sources_at5 m ρ c) (destinations_at5 m ρ c) (weights_at5 m ρ c)).trans
    (congrArg (fun h => aggregate16 h (m ((c.tc : Thread nD τ).loc main_arg1))) (after_product2 m ρ c))

/-- THE KERNEL'S RESULT: the reference's composition of stages of the six arguments. -/
theorem kernel_result (c : Dev nD) : W7 m ρ c (Proc.devRef .tc main_v58)
    = biasLogistic (aggregate16 (rowsTimes16 (biasMaxZero (aggregate128 (rowsTimes128 (m ((c.tc : Thread nD τ).loc main_arg0)) (m ((c.tc : Thread nD τ).loc main_arg2))) (m ((c.tc : Thread nD τ).loc main_arg1)))
        (m ((c.tc : Thread nD τ).loc main_arg3))) (m ((c.tc : Thread nD τ).loc main_arg4))) (m ((c.tc : Thread nD τ).loc main_arg1))) (m ((c.tc : Thread nD τ).loc main_arg5)) :=
  (W7_arr m ρ c 2).trans <| (Cert.KernelIdeal.BiasLogistic.whole (V6 m ρ) c).trans
    (congrArg₂ biasLogistic (after_aggregation2 m ρ c) (bias2_at6 m ρ c))

end Cert.Joined

end
-- ==== Proof.lean ====
/-
  A two-layer graph convolution on 50000 nodes and 850000 edges (800000 given, one self-loop per node):

      out = logistic (A (max (A (x · W1) + b1) 0 · W2) + b2),

  where A gathers the rows of its operand by an edge's source node, scales each by the edge's weight — the product of
  the inverse square roots of the degrees of its two ends — and scatter-adds them into the edge's destination node.

  The kernel computes the two products and the two bias-and-activation steps 5000 rows at a time, in four pallas_calls
  with the host's gather, scale and scatter-add between them; the reference computes each on the whole array. On the
  extended reals the two are one function of the six arguments:
    * a product of a row block with the whole matrix is that block of rows of the whole product — entry (n, j) is the
      same sum over the 128 shared coordinates, the casts to a shorter float format being the identity there;
    * adding the bias along the rows and taking the maximum with zero, or the logistic function, acts entry by entry,
      and the kernel's logistic IS the reference's quotient 1 / (1 + e^(-v));
    * the ten row blocks cover the 50000 rows;
    * the source list, the destination list and the edge weights are the same operations of the edge list on both
      sides, and each aggregation is the same gather, scale and scatter-add of the same arrays.
  No step needs the inputs finite: only the two sides' sums being the SAME sums is used.

  The three frames are the generated ones (the reference's is its generated run with the result dropped); the kernel
  and its idealization differ by no rewrite, so that conjunct is trivial.
-/
import proofs.«148392_j18253611008246_1_alg».proof.Defs
import proofs.«148392_j18253611008246_1_alg».proof.Proof.Gen.Kernel
import proofs.«148392_j18253611008246_1_alg».proof.Proof.Gen.Kernel.Skeleton
import proofs.«148392_j18253611008246_1_alg».proof.Proof.Gen.Kernel.Launch
import proofs.«148392_j18253611008246_1_alg».proof.Proof.Gen.Kernel.Points
import proofs.«148392_j18253611008246_1_alg».proof.Proof.Gen.Kernel.Frame
import proofs.«148392_j18253611008246_1_alg».proof.Proof.Gen.KernelIdeal
import proofs.«148392_j18253611008246_1_alg».proof.Proof.Gen.KernelIdeal.Skeleton
import proofs.«148392_j18253611008246_1_alg».proof.Proof.Gen.KernelIdeal.Launch
import proofs.«148392_j18253611008246_1_alg».proof.Proof.Gen.KernelIdeal.Points
import proofs.«148392_j18253611008246_1_alg».proof.Proof.Gen.KernelIdeal.Frame
import proofs.«148392_j18253611008246_1_alg».proof.Proof.Gen.ReferenceIdeal
import proofs.«148392_j18253611008246_1_alg».proof.Proof.Gen.Pre_finite_inputs
import proofs.«148392_j18253611008246_1_alg».proof.Proof.Gen.ReferenceIdeal.Run
import proofs.«148392_j18253611008246_1_alg».proof.Proof.Gen.ReferenceIdeal.Read
import proofs.«148392_j18253611008246_1_alg».proof.Proof.KernelRun
import proofs.«148392_j18253611008246_1_alg».proof.Proof.RefStages
import proofs.«148392_j18253611008246_1_alg».proof.Proof.Joined
import Idealize.ShloMosaic.Adequacy
import Idealize.ShloMosaic.Init

set_option maxRecDepth 16384

noncomputable section

namespace Cert.Proof

open Idealize.ShloMosaic Idealize.ShloMosaic.TcCoe Idealize.SL.Sem
open Cert.Gcn Cert.ReferenceIdeal.Stages

/-- The value both programs end with, as a function of the kernel's launch memory. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v58) :=
  biasLogistic (aggregate16 (rowsTimes16 (biasMaxZero (aggregate128 (rowsTimes128 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)))
    (m ((c.tc : Thread Cert.KernelIdeal.nD Cert.KernelIdeal.τ).loc Cert.KernelIdeal.main_arg3))) (m ((c.tc : Thread Cert.KernelIdeal.nD Cert.KernelIdeal.τ).loc Cert.KernelIdeal.main_arg4))) (m ((c.tc : Thread Cert.KernelIdeal.nD Cert.KernelIdeal.τ).loc Cert.KernelIdeal.main_arg1))) (m ((c.tc : Thread Cert.KernelIdeal.nD Cert.KernelIdeal.τ).loc Cert.KernelIdeal.main_arg5))

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `common`: the kernel by its run read back through its
    four stages, the reference by its run read stage by stage. -/
theorem algebraic : Cert.algebraic_KernelIdeal_ReferenceIdeal := by
  intro m ρ m' ρ' _ hagree
  refine ⟨common m, ?_, ?_⟩
  · exact (θ_run Cert.KernelIdeal.defs _ _).mono
      (fun r h c => ⟨(h c).1.trans (Cert.Joined.kernel_result m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v69_eq, Cert.ReferenceIdeal.Stages.result,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
